-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_one_minus_stable" .f32 0x41A00000#32 ((268435456 / 13421773 : ℝ) : EReal)
  ∧ IdealRules.named_const.Statement Cert.KernelIdeal.κ "inv_one_minus_change" .f32 0x3F86BCA2#32 ((16777216 / 15938355 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8388608 : Shape := ⟨1, ![8388608]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : IVec S8388608 32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  main_v3
-- ==== Kernel.lean ====
abbrev S8388608x2 : Shape := ⟨2, ![8388608, 2]⟩
abbrev S8388608 : Shape := ⟨1, ![8388608]⟩
abbrev S8388608x1 : Shape := ⟨2, ![8388608, 1]⟩
abbrev S65536x128 : Shape := ⟨2, ![65536, 128]⟩
abbrev S1x128 : Shape := ⟨2, ![1, 128]⟩
abbrev S1024x128 : Shape := ⟨2, ![1024, 128]⟩
abbrev S128 : Shape := ⟨1, ![128]⟩
abbrev S_ : Shape := ⟨0, ![]⟩

abbrev nBuf : Space → Nat
  | .hbm => 16
  | .vmem => 7
  | .smem => 0
  | _ => 0

abbrev bufTy : (tb : Table) → Fin (tcTables nBuf tb) → BufTy
  | .hbm, ⟨0, _⟩ => ⟨S8388608x2, .f32⟩
  | .hbm, ⟨1, _⟩ => ⟨S8388608, .i32⟩
  | .hbm, ⟨2, _⟩ => ⟨S8388608x1, .f32⟩
  | .hbm, ⟨3, _⟩ => ⟨S8388608, .f32⟩
  | .hbm, ⟨4, _⟩ => ⟨S65536x128, .f32⟩
  | .hbm, ⟨5, _⟩ => ⟨S8388608x1, .f32⟩
  | .hbm, ⟨6, _⟩ => ⟨S8388608, .f32⟩
  | .hbm, ⟨7, _⟩ => ⟨S65536x128, .f32⟩
  | .hbm, ⟨8, _⟩ => ⟨S65536x128, .i32⟩
  | .hbm, ⟨9, _⟩ => ⟨S1x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .i32⟩
  | .local _ .vmem, ⟨5, _⟩ => ⟨S1024x128, .i32⟩
  | .local _ .vmem, ⟨6, _⟩ => ⟨S1x128, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S8388608x2_S8388608x1_0_0 : S8388608x2.Slices ![0, 0] S8388608x1
  shapeCasts_S8388608x1_S8388608 : S8388608x1.ShapeCasts S8388608
  shapeCasts_S8388608_S65536x128 : S8388608.ShapeCasts S65536x128
  slices_S8388608x2_S8388608x1_0_1 : S8388608x2.Slices ![0, 1] S8388608x1
  inb_S1x128_S1x128_0_0 : ∀ a, (![0, 0] : Fin 2 → Nat) a + S1x128.size a ≤ S1x128.size a
  h_S1x128 : 0 < S1x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S128 : S1024x128.Reduces [0] S128
  shapeCasts_S128_S1x128 : S128.ShapeCasts S1x128
  shapeCasts_S1x128_S1x128 : S1x128.ShapeCasts S1x128
  reducesTo_S1x128_S_d0_1 : S1x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S65536x128.size a
  hwx0_2 : ∀ i : grid0.Coords, EltTy.bits .i32 = 32 ∨ (Rect.block (s := S65536x128) S1024x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608 : Shape := ⟨1, ![8388608]⟩
abbrev S_ : Shape := ⟨0, ![]⟩
abbrev S8388608x1 : Shape := ⟨2, ![8388608, 1]⟩

abbrev nBuf : Space → Nat
  | .hbm => 75
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608, .i32⟩
  | .hbm, ⟨2, _⟩ => ⟨S_, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S8388608x1, .f32⟩
  | .hbm, ⟨8, _⟩ => ⟨S8388608x2, .f32⟩
  | .hbm, ⟨9, _⟩ => ⟨S8388608x2, .f32⟩
  | .hbm, ⟨10, _⟩ => ⟨S8388608x2, .f32⟩
  | .hbm, ⟨11, _⟩ => ⟨S_, .f32⟩
  | .hbm, ⟨12, _⟩ => ⟨S8388608, .f32⟩
  | .hbm, ⟨13, _⟩ => ⟨S8388608x1, .f32⟩
  | .hbm, ⟨14, _⟩ => ⟨S8388608x2, .f32⟩
  | .hbm, ⟨15, _⟩ => ⟨S8388608x2, .f32⟩
  | .hbm, ⟨16, _⟩ => ⟨S8388608x1, .f32⟩
  | .hbm, ⟨17, _⟩ => ⟨S8388608, .f32⟩
  | .hbm, ⟨18, _⟩ => ⟨S8388608x1, .f32⟩
  | .hbm, ⟨19, _⟩ => ⟨S8388608, .f32⟩
  | .hbm, ⟨20, _⟩ => ⟨S_, .f32⟩
  | .hbm, ⟨21, _⟩ => ⟨S8388608, .f32⟩
  | .hbm, ⟨22, _⟩ => ⟨S8388608, .f32⟩
  | .hbm, ⟨23, _⟩ => ⟨S_, .f32⟩
  | .hbm, ⟨24, _⟩ => ⟨S8388608, .f32⟩
  | .hbm, ⟨25, _⟩ => ⟨S8388608, .f32⟩
  | .hbm, ⟨26, _⟩ => ⟨S_, .f32⟩
  | .hbm, ⟨27, _⟩ => ⟨S8388608, .f32⟩
  | .hbm, ⟨28, _⟩ => ⟨S8388608, .f32⟩
  | .hbm, ⟨29, _⟩ => ⟨S_, .f32⟩
  | .hbm, ⟨30, _⟩ => ⟨S8388608, .f32⟩
  | .hbm, ⟨31, _⟩ => ⟨S8388608, .f32⟩
  | .hbm, ⟨32, _⟩ => ⟨S_, .f32⟩
  | .hbm, ⟨33, _⟩ => ⟨S8388608, .f32⟩
  | .hbm, ⟨34, _⟩ => ⟨S8388608, .f32⟩
  | .hbm, ⟨35, _⟩ => ⟨S_, .f32⟩
  | .hbm, ⟨36, _⟩ => ⟨S8388608, .f32⟩
  | .hbm, ⟨37, _⟩ => ⟨S8388608, .f32⟩
  | .hbm, ⟨38, _⟩ => ⟨S_, .f32⟩
  | .hbm, ⟨39, _⟩ => ⟨S8388608, .f32⟩
  | .hbm, ⟨40, _⟩ => ⟨S8388608, .f32⟩
  | .hbm, ⟨41, _⟩ => ⟨S_, .f32⟩
  | .hbm, ⟨42, _⟩ => ⟨S8388608, .f32⟩
  | .hbm, ⟨43, _⟩ => ⟨S8388608, .f32⟩
  | .hbm, ⟨44, _⟩ => ⟨S_, .f32⟩
  | .hbm, ⟨45, _⟩ => ⟨S8388608, .f32⟩
  | .hbm, ⟨46, _⟩ => ⟨S8388608, .f32⟩
  | .hbm, ⟨47, _⟩ => ⟨S_, .f32⟩
  | .hbm, ⟨48, _⟩ => ⟨S8388608, .f32⟩
  | .hbm, ⟨49, _⟩ => ⟨S8388608, .f32⟩
  | .hbm, ⟨50, _⟩ => ⟨S_, .f32⟩
  | .hbm, ⟨51, _⟩ => ⟨S8388608, .f32⟩
  | .hbm, ⟨52, _⟩ => ⟨S8388608, .f32⟩
  | .hbm, ⟨53, _⟩ => ⟨S_, .i32⟩
  | .hbm, ⟨54, _⟩ => ⟨S8388608, .i32⟩
  | .hbm, ⟨55, _⟩ => ⟨S8388608, .i1⟩
  | .hbm, ⟨56, _⟩ => ⟨S8388608, .f32⟩
  | .hbm, ⟨57, _⟩ => ⟨S_, .f32⟩
  | .hbm, ⟨58, _⟩ => ⟨S8388608, .f32⟩
  | .hbm, ⟨59, _⟩ => ⟨S8388608, .f32⟩
  | .hbm, ⟨60, _⟩ => ⟨S8388608, .f32⟩
  | .hbm, ⟨61, _⟩ => ⟨S8388608, .f32⟩
  | .hbm, ⟨62, _⟩ => ⟨S8388608, .f32⟩
  | .hbm, ⟨63, _⟩ => ⟨S_, .f32⟩
  | .hbm, ⟨64, _⟩ => ⟨S8388608, .f32⟩
  | .hbm, ⟨65, _⟩ => ⟨S8388608, .f32⟩
  | .hbm, ⟨66, _⟩ => ⟨S8388608, .f32⟩
  | .hbm, ⟨67, _⟩ => ⟨S8388608, .f32⟩
  | .hbm, ⟨68, _⟩ => ⟨S8388608, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩
abbrev main_v34 : Ref sig .tc := ⟨.hbm, 49, rfl⟩
abbrev main_cst_12 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_cst_17 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  reducesTo_S8388608x2_S8388608_d1 : S8388608x2.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x2_0_1 : S8388608x1.BroadcastsInDim S8388608x2 (![0, 1] : Fin 2 → Fin S8388608x2.rank)
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  reducesTo_S8388608_S_d0 : S8388608.ReducesTo [0] S_

variable [Facts₀]

class Facts : Prop extends Facts₀ where

variable [Facts]
-- ==== Proof.LossSpec.lean ====
/-
  The probability-adjusted two-class loss, sample by sample, over the extended reals.

  For one sample with logits `a`, `b` and label `lab`: with `mx = max a b`, `e₀ = exp (a - mx)`, `e₁ = exp (b - mx)`,
  `s = e₀ + e₁`, the class probabilities are `p₀ = e₀ / s` and `p₁ = e₁ / s`; the weights are
  `w₀ = max 0.1 (1 - max 0 (p₀ - 0.95) · k₀ · 0.5)` and `w₁ = max 0.5 (2 - max 0 (p₁ - 0.05) · k₁)`, where `k₀` is the exact
  reciprocal of the single-precision word for `1 - 0.95` and `k₁` the exact reciprocal of the single-precision word for
  `1 - 0.05`; the loss is `(0 - w₀) · log (p₀ + ε)` when the label is zero and `(0 - w₁) · log (p₁ + ε)` otherwise.
  The words for 0.95, 0.05, 0.1, 0.5, 1, 2 and ε are kept as the words they are: both programs carry the same ones.

  Also here: the few single-precision words whose exact real value the proof needs (the two divisors, `2⁻²³`, `2²³`, `1`),
  and the two facts that turn a quotient by such a word into a product with its reciprocal.
-/
import Idealize.ShloMosaic.PureOps.Ideal
import Idealize.ShloMosaic.PureOps.Ideal.Laws
import Idealize.ShloMosaic.Lib.ValueIdx

noncomputable section

namespace Cert.LossSpec

open Idealize.ShloMosaic

/-! ## The words read as reals -/

/-- The word the reference prints for `1 - 0.95` is `13421773 / 2²⁸`. -/
theorem ofBits_oneMinusStable : Ideal.ofBits .f32 0x3D4CCCCD#32 = ((13421773 / 268435456 : ℝ) : EReal) := by
  simp [Ideal.ofBits, Ideal.ieee, -EReal.coe_mul] <;> norm_num

/-- The word the reference prints for `1 - 0.05` is `15938355 / 2²⁴`. -/
theorem ofBits_oneMinusChange : Ideal.ofBits .f32 0x3F733333#32 = ((15938355 / 16777216 : ℝ) : EReal) := by
  simp [Ideal.ofBits, Ideal.ieee, -EReal.coe_mul] <;> norm_num

/-- `2⁻²³`, the reciprocal of the sample count, exactly. -/
theorem ofBits_invCount : Ideal.ofBits .f32 0x34000000#32 = ((1 / 8388608 : ℝ) : EReal) := by
  simp [Ideal.ofBits, Ideal.ieee, -EReal.coe_mul] <;> norm_num

/-- `2²³`, the sample count. -/
theorem ofBits_count : Ideal.ofBits .f32 0x4B000000#32 = ((8388608 : ℝ) : EReal) := by
  simp [Ideal.ofBits, Ideal.ieee, -EReal.coe_mul] <;> norm_num

/-- `1.0`. -/
theorem ofBits_one : Ideal.ofBits .f32 0x3F800000#32 = 1 := by
  simp [Ideal.ofBits, Ideal.ieee, -EReal.coe_mul] <;> norm_num

/-- The exact reciprocal of the word for `1 - 0.95`. -/
abbrev kStable : EReal := ((268435456 / 13421773 : ℝ) : EReal)
/-- The exact reciprocal of the word for `1 - 0.05`. -/
abbrev kChange : EReal := ((16777216 / 15938355 : ℝ) : EReal)

/-- Dividing by the word for `1 - 0.95` is multiplying by its exact reciprocal, on every extended real. -/
theorem div_oneMinusStable (x : EReal) : Ideal.div x (Ideal.ofBits .f32 0x3D4CCCCD#32) = x * kStable := by
  rw [ofBits_oneMinusStable, Ideal.div_coe (by norm_num)]
  norm_num

/-- Dividing by the word for `1 - 0.05` is multiplying by its exact reciprocal, on every extended real. -/
theorem div_oneMinusChange (x : EReal) : Ideal.div x (Ideal.ofBits .f32 0x3F733333#32) = x * kChange := by
  rw [ofBits_oneMinusChange, Ideal.div_coe (by norm_num)]
  norm_num

/-- Dividing by the sample count is multiplying by `2⁻²³`, on every extended real. -/
theorem div_count (x : EReal) : Ideal.div x (Ideal.ofBits .f32 0x4B000000#32) = x * Ideal.ofBits .f32 0x34000000#32 := by
  rw [ofBits_count, ofBits_invCount, Ideal.div_coe (by norm_num)]

/-! ## One sample's loss -/

/-- The probability of the first class: `exp (a - max a b) / (exp (a - max a b) + exp (b - max a b))`. -/
def probStable (a b : EReal) : EReal :=
  Ideal.div (Ideal.exp (a - max a b)) (Ideal.exp (a - max a b) + Ideal.exp (b - max a b))

/-- The probability of the second class. -/
def probChange (a b : EReal) : EReal :=
  Ideal.div (Ideal.exp (b - max a b)) (Ideal.exp (a - max a b) + Ideal.exp (b - max a b))

/-- The weight of a first-class sample: `max 0.1 (1 - max 0 (p - 0.95) · k₀ · 0.5)`. -/
def weightStable (p : EReal) : EReal :=
  max (Ideal.ofBits .f32 0x3DCCCCCD#32)
    (Ideal.ofBits .f32 0x3F800000#32 - max 0 (p - Ideal.ofBits .f32 0x3F733333#32) * kStable * Ideal.ofBits .f32 0x3F000000#32)

/-- The weight of a second-class sample: `max 0.5 (2 - max 0 (p - 0.05) · k₁)`. -/
def weightChange (p : EReal) : EReal :=
  max (Ideal.ofBits .f32 0x3F000000#32)
    (Ideal.ofBits .f32 0x40000000#32 - max 0 (p - Ideal.ofBits .f32 0x3D4CCCCD#32) * kChange)

/-- One sample's loss: the weighted negative log-probability of the class its label names. -/
def sampleLoss (a b : EReal) (lab : BitVec 32) : EReal :=
  Scalar.select (IntOp.cmpi .eq lab 0#32)
    (-(weightStable (probStable a b)) * Ideal.log (probStable a b + Ideal.ofBits .f32 0x322BCC77#32))
    (-(weightChange (probChange a b)) * Ideal.log (probChange a b + Ideal.ofBits .f32 0x322BCC77#32))

/-! ## The whole result -/

open Idealize.ShloMosaic.ValueIdx in
/-- The mean loss of `2²³` samples: the sum of the samples' losses times `2⁻²³`. -/
def meanLoss (X : (⟨2, ![8388608, 2]⟩ : Shape).Idx → EReal) (Y : (⟨1, ![8388608]⟩ : Shape).Idx → BitVec 32) : EReal :=
  (∑ n : Fin 8388608, sampleLoss (X (ix2 n 0)) (X (ix2 n 1)) (Y (ix1 n))) * Ideal.ofBits .f32 0x34000000#32

end Cert.LossSpec

end
-- ==== Proof.KernelLoss.lean ====
/-
  The kernel body's arithmetic, read at an index over the extended reals.

  On a block of 1024 rows by 128 lanes the body computes, entry by entry, the two class probabilities, the two weights and
  the selected loss of the sample held at that entry; it then sums each lane over the 1024 rows and adds the lane sums to
  the 128 running totals it was handed. So the total of lane `q` after the body is the total before it plus the sum over
  the rows `r` of the loss of the sample at `(r, q)`.

  The two named reciprocals read as their exact rationals; the word for zero reads as `0`, so `0 - w` is `-w`.
-/
import proofs.«176712_j52819507806483_2_alg».proof.Proof.Gen.KernelIdeal.Skeleton
import proofs.«176712_j52819507806483_2_alg».proof.Proof.LossSpec
import Idealize.ShloMosaic.Lib.Pipeline.Value
import Idealize.ShloMosaic.Lib.ValueIdx
import Idealize.ShloMosaic.PureOps.Ideal.Laws
import Idealize.ShloMosaic.PureOps.IdealRules

noncomputable section

namespace Cert.KernelLoss

open Cert.KernelIdeal Cert.KernelIdeal.Gen Idealize.ShloMosaic Idealize.ShloMosaic.ValueIdx Cert.LossSpec

/-- The constant named for the reciprocal of `1 - 0.95` is that exact reciprocal. -/
theorem named_stable : Named.named (F := Ideal) κ "inv_one_minus_stable" (φ := .f32) 0x41A00000#32 = kStable :=
  IdealRules.named_const.ideal_named_scalar _ _ _ _ rfl

/-- The constant named for the reciprocal of `1 - 0.05` is that exact reciprocal. -/
theorem named_change : Named.named (F := Ideal) κ "inv_one_minus_change" (φ := .f32) 0x3F86BCA2#32 = kChange :=
  IdealRules.named_const.ideal_named_scalar _ _ _ _ rfl

variable (x0 x1 : Vec Ideal S1024x128 .f32) (x2 : Vec Ideal S1024x128 .i32)

/-! ## The loads, re-cast to their own shape, are the blocks -/

theorem pay3_eq : k0_pay3 (F := Ideal) x0 = x0 := shapeCast_self _ _
theorem pay4_eq : k0_pay4 (F := Ideal) x1 = x1 := shapeCast_self _ _
theorem pay5_eq : k0_pay5 (F := Ideal) x2 = x2 := shapeCast_self _ _

/-! ## Entry by entry -/

/-- The first class's probability at an entry. -/
theorem pay10_apply (j : S1024x128.Idx) : k0_pay10 (F := Ideal) x0 x1 j = probStable (x0 j) (x1 j) := by
  unfold k0_pay10 k0_pay9 k0_pay7 k0_pay8 k0_pay6
  rw [pay3_eq, pay4_eq]
  rfl

/-- The second class's probability at an entry. -/
theorem pay11_apply (j : S1024x128.Idx) : k0_pay11 (F := Ideal) x0 x1 j = probChange (x0 j) (x1 j) := by
  unfold k0_pay11 k0_pay9 k0_pay7 k0_pay8 k0_pay6
  rw [pay3_eq, pay4_eq]
  rfl

/-- The first class's weight at an entry. -/
theorem pay12_apply (j : S1024x128.Idx) : k0_pay12 (F := Ideal) x0 x1 j = weightStable (probStable (x0 j) (x1 j)) := by
  rw [← pay10_apply]
  unfold k0_pay12 weightStable
  simp only [maximumf_apply, subf_apply, mulf_apply, broadcast_apply]
  rw [named_stable]
  simp only [Ideal.ofBits_def, Ideal.ofBits_zero_f32]

/-- The second class's weight at an entry. -/
theorem pay13_apply (j : S1024x128.Idx) : k0_pay13 (F := Ideal) x0 x1 j = weightChange (probChange (x0 j) (x1 j)) := by
  rw [← pay11_apply]
  unfold k0_pay13 weightChange
  simp only [maximumf_apply, subf_apply, mulf_apply, broadcast_apply]
  rw [named_change]
  simp only [Ideal.ofBits_def, Ideal.ofBits_zero_f32]

/-! ## The lane sums -/

/-- Lane `q` of the reduced index with row `r` put back is the entry `(r, q)`. -/
theorem lift_lane (h : S1024x128.Reduces [0] S128) (q : Fin 128) (r : Fin (S1024x128.size 0)) :
    h.lift (ix1 q) r = ix2 (⟨r.val, r.isLt⟩ : Fin 1024) q := by
  funext c; apply Fin.ext
  fin_cases c <;> rfl

/-- A sum of a block over its rows, at lane `q`. -/
theorem laneSum (v : FVec Ideal S1024x128 .f32) (h : S1024x128.Reduces [0] S128) (hφ : FKind.Formats FTy.f32)
    (hacc : (0x00000000#32 : BitVec 32) = FKind.add.neutral .f32 hφ) (q : Fin 128) :
    multiReduction .add [0] S128 v 0x00000000#32 h hφ hacc (ix1 q) = ∑ r : Fin 1024, v (ix2 r q) := by
  refine (Ideal.multiReduction_add_single v 0x00000000#32 h hφ hacc (ix1 q)).trans ?_
  show (∑ r : Fin 1024, v (h.lift (ix1 q) r)) = _
  exact Finset.sum_congr rfl fun r _ => congrArg v (lift_lane h q r)

/-! ## What the body stores -/

/-- The block stored at the first grid point before accumulating: zeros. -/
theorem pay2_apply (y : S1x128.Idx) : k0_pay2 (F := Ideal) y = 0 := by
  unfold k0_pay2
  show Ideal.ofBits .f32 0x00000000#32 = 0
  exact Ideal.ofBits_zero_f32

/-- Lane `q` of the block the body stores: the total it was handed, plus the sum over the block's rows of the losses of the
    samples in that lane. -/
theorem pay1_apply (xo : Vec Ideal S1x128 .f32) (q : Fin 128) :
    k0_pay1 (F := Ideal) (k0_pay5 x2) (k0_pay10 x0 x1) (k0_pay11 x0 x1) (k0_pay12 x0 x1) (k0_pay13 x0 x1) xo (ix2 (0 : Fin 1) q)
      = xo (ix2 (0 : Fin 1) q) + ∑ r : Fin 1024, sampleLoss (x0 (ix2 r q)) (x1 (ix2 r q)) (x2 (ix2 r q)) := by
  unfold k0_pay1
  rw [addf_apply, shapeCast_self]
  refine congrArg (xo (ix2 (0 : Fin 1) q) + ·) ?_
  rw [shapeCast_apply _ _ (ix2 (0 : Fin 1) q) (ix1 q) (by rw [Shape.rowMajor_val_two, Shape.rowMajor_val_one]; show q.val = 0 * 128 + q.val; omega)]
  refine (laneSum _ _ _ _ q).trans (Finset.sum_congr rfl fun r _ => ?_)
  show Scalar.select (IntOp.cmpi .eq (k0_pay5 (F := Ideal) x2 (ix2 r q)) 0#32)
      ((Ideal.ofBits .f32 0x00000000#32 - k0_pay12 (F := Ideal) x0 x1 (ix2 r q))
        * Ideal.log (k0_pay10 (F := Ideal) x0 x1 (ix2 r q) + Ideal.ofBits .f32 0x322BCC77#32))
      ((Ideal.ofBits .f32 0x00000000#32 - k0_pay13 (F := Ideal) x0 x1 (ix2 r q))
        * Ideal.log (k0_pay11 (F := Ideal) x0 x1 (ix2 r q) + Ideal.ofBits .f32 0x322BCC77#32)) = _
  rw [pay5_eq, pay12_apply, pay13_apply, pay10_apply, pay11_apply, Ideal.ofBits_zero_f32, zero_sub, zero_sub]
  rfl

end Cert.KernelLoss

end
-- ==== Proof.KernelBlocks.lean ====
/-
  What the kernel's three input blocks hold, in terms of the argument arrays.

  Before the kernel is launched the logits `[N, 2]` are split into their two columns, each re-cast to `[N]` and then to
  `[65536, 128]`, and the labels `[N]` are re-cast to `[65536, 128]`: a re-cast keeps the row-major position, so entry
  `(R, q)` of each slab is sample `n = 128·R + q`. Grid point `t` fetches rows `1024·t … 1024·t + 1023` of each slab, so
  entry `(r, q)` of its blocks is sample `n = 128·(1024·t + r) + q`: column 0 of the logits, column 1, and the label.
-/
import proofs.«176712_j52819507806483_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelBlocks

open Cert.KernelIdeal Cert.KernelIdeal.Gen Idealize.ShloMosaic.ValueIdx

variable {F : FTy → Type} [FloatOps F] [Named F]
variable (m : (ℓ : Loc nD τ sig) → Buf (Elt F) ℓ)

/-! ## The slabs the kernel is launched on -/

/-- The first slab: column 0 of the logits, re-cast twice. -/
theorem V_v2 (c : Dev nD) : (V m c main_v2 : S65536x128.Idx → F .f32)
    = shapeCast S65536x128 (shapeCast S8388608 (extractStridedSlice S8388608x1 ![0, 0] (m ((c : Thread nD τ).loc main_arg0))
        Facts₀.slices_S8388608x2_S8388608x1_0_0) Facts₀.shapeCasts_S8388608x1_S8388608) Facts₀.shapeCasts_S8388608_S65536x128 := by
  show StableHlo.after hostOps0 (fun b => m (c, b)) (Proc.devRef .tc main_v2) = _
  after_results
  rfl

/-- The second slab: column 1 of the logits, re-cast twice. -/
theorem V_v5 (c : Dev nD) : (V m c main_v5 : S65536x128.Idx → F .f32)
    = shapeCast S65536x128 (shapeCast S8388608 (extractStridedSlice S8388608x1 ![0, 1] (m ((c : Thread nD τ).loc main_arg0))
        Facts₀.slices_S8388608x2_S8388608x1_0_1) Facts₀.shapeCasts_S8388608x1_S8388608) Facts₀.shapeCasts_S8388608_S65536x128 := by
  show StableHlo.after hostOps0 (fun b => m (c, b)) (Proc.devRef .tc main_v5) = _
  after_results
  rfl

/-- The third slab: the labels, re-cast. -/
theorem V_v6 (c : Dev nD) : (V m c main_v6 : S65536x128.Idx → BitVec 32)
    = shapeCast S65536x128 (m ((c : Thread nD τ).loc main_arg1)) Facts₀.shapeCasts_S8388608_S65536x128 := by
  show StableHlo.after hostOps0 (fun b => m (c, b)) (Proc.devRef .tc main_v6) = _
  after_results
  rfl

/-! ## A slab's entry is a sample -/

/-- Column `k` of a two-column array, re-cast to `[N]` and then to `[65536, 128]`, read at `(R, q)`: the array at `(128·R + q, k)`. -/
theorem col_apply {α : Type} (Y : S8388608x2.Idx → α) (k : Fin 2) (off : Fin 2 → Nat) (hoff : off = ![0, k.val])
    (h1 : S8388608x2.Slices off S8388608x1) (h2 : S8388608x1.ShapeCasts S8388608) (h3 : S8388608.ShapeCasts S65536x128)
    (R : Fin 65536) (q : Fin 128) (n : Fin 8388608) (hn : n.val = R.val * 128 + q.val) :
    shapeCast S65536x128 (shapeCast S8388608 (extractStridedSlice S8388608x1 off Y h1) h2) h3 (ix2 R q) = Y (ix2 n k) := by
  subst hoff
  rw [shapeCast_apply _ h3 (ix2 R q) (ix1 n) (by rw [Shape.rowMajor_val_two, Shape.rowMajor_val_one]; show n.val = R.val * 128 + q.val; exact hn)]
  rw [shapeCast_apply _ h2 (ix1 n) (ix2 n (0 : Fin 1)) (by rw [Shape.rowMajor_val_two, Shape.rowMajor_val_one]; show n.val * 1 + 0 = n.val; omega)]
  exact extractStridedSlice_apply _ Y h1 (ix2 n (0 : Fin 1)) (ix2 n k) (fun a => match a with
    | ⟨0, _⟩ => by show n.val = 0 + n.val; omega
    | ⟨1, _⟩ => by show k.val = k.val + 0; omega)

/-- A one-axis array re-cast to `[65536, 128]`, read at `(R, q)`: the array at `128·R + q`. -/
theorem flat_apply {α : Type} (Y : S8388608.Idx → α) (h3 : S8388608.ShapeCasts S65536x128)
    (R : Fin 65536) (q : Fin 128) (n : Fin 8388608) (hn : n.val = R.val * 128 + q.val) :
    shapeCast S65536x128 Y h3 (ix2 R q) = Y (ix1 n) :=
  shapeCast_apply _ h3 (ix2 R q) (ix1 n) (by rw [Shape.rowMajor_val_two, Shape.rowMajor_val_one]; show n.val = R.val * 128 + q.val; exact hn)

/-! ## A block's entry is a slab's entry -/

/-- Where the three input windows sit at grid point `t`: block row `t`, block column 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0))

theorem blk0 (c : Dev nD) (t : Fin cfg0.N) (r : Fin 1024) (q : Fin 128) (R : Fin 65536) (hR : R.val = t.val * 1024 + r.val) :
    (iblk m c 0 t : S1024x128.Idx → F .f32) (ix2 r q) = (V m c main_v2 : S65536x128.Idx → F .f32) (ix2 R q) := by
  unfold iblk
  rw [View.read_apply]
  show (V m c main_v2 : S65536x128.Idx → F .f32) (((cfg0.win 0).blk t).view.emb (ix2 r q)) = V m c main_v2 (ix2 R q)
  congr 1
  funext a
  apply Fin.ext
  match a with
  | ⟨0, _⟩ => show win0_0.index t 0 * 1024 + 1 * r.val = R.val; rw [(idx_facts t).1.1]; omega
  | ⟨1, _⟩ => show win0_0.index t 1 * 128 + 1 * q.val = q.val; rw [(idx_facts t).1.2]; omega

theorem blk1 (c : Dev nD) (t : Fin cfg0.N) (r : Fin 1024) (q : Fin 128) (R : Fin 65536) (hR : R.val = t.val * 1024 + r.val) :
    (iblk m c 1 t : S1024x128.Idx → F .f32) (ix2 r q) = (V m c main_v5 : S65536x128.Idx → F .f32) (ix2 R q) := by
  unfold iblk
  rw [View.read_apply]
  show (V m c main_v5 : S65536x128.Idx → F .f32) (((cfg0.win 1).blk t).view.emb (ix2 r q)) = V m c main_v5 (ix2 R q)
  congr 1
  funext a
  apply Fin.ext
  match a with
  | ⟨0, _⟩ => show win0_1.index t 0 * 1024 + 1 * r.val = R.val; rw [(idx_facts t).2.1.1]; omega
  | ⟨1, _⟩ => show win0_1.index t 1 * 128 + 1 * q.val = q.val; rw [(idx_facts t).2.1.2]; omega

theorem blk2 (c : Dev nD) (t : Fin cfg0.N) (r : Fin 1024) (q : Fin 128) (R : Fin 65536) (hR : R.val = t.val * 1024 + r.val) :
    (iblk m c 2 t : S1024x128.Idx → BitVec 32) (ix2 r q) = (V m c main_v6 : S65536x128.Idx → BitVec 32) (ix2 R q) := by
  unfold iblk
  rw [View.read_apply]
  show (V m c main_v6 : S65536x128.Idx → BitVec 32) (((cfg0.win 2).blk t).view.emb (ix2 r q)) = V m c main_v6 (ix2 R q)
  congr 1
  funext a
  apply Fin.ext
  match a with
  | ⟨0, _⟩ => show win0_2.index t 0 * 1024 + 1 * r.val = R.val; rw [(idx_facts t).2.2.1]; omega
  | ⟨1, _⟩ => show win0_2.index t 1 * 128 + 1 * q.val = q.val; rw [(idx_facts t).2.2.2]; omega

/-! ## A block's entry is a sample -/

/-- The sample held at entry `(r, q)` of grid point `t`'s blocks. -/
def sampleOf (t : Fin cfg0.N) (r : Fin 1024) (q : Fin 128) : Fin 8388608 :=
  ⟨(t.val * 1024 + r.val) * 128 + q.val, by
    have ht : t.val < 64 := lt_of_lt_of_eq t.isLt N_0
    have := r.isLt; have := q.isLt; omega⟩

theorem rowOf_lt (t : Fin cfg0.N) (r : Fin 1024) : t.val * 1024 + r.val < 65536 := by
  have ht : t.val < 64 := lt_of_lt_of_eq t.isLt N_0
  have := r.isLt; omega

/-- Entry `(r, q)` of the first block at point `t` is the first logit of that sample. -/
theorem in0 (c : Dev nD) (t : Fin cfg0.N) (r : Fin 1024) (q : Fin 128) :
    (iblk m c 0 t : S1024x128.Idx → F .f32) (ix2 r q) = m ((c : Thread nD τ).loc main_arg0) (ix2 (sampleOf t r q) 0) := by
  rw [blk0 m c t r q ⟨_, rowOf_lt t r⟩ rfl, V_v2]
  exact col_apply _ 0 _ rfl _ _ _ _ q (sampleOf t r q) rfl

/-- Entry `(r, q)` of the second block at point `t` is the second logit of that sample. -/
theorem in1 (c : Dev nD) (t : Fin cfg0.N) (r : Fin 1024) (q : Fin 128) :
    (iblk m c 1 t : S1024x128.Idx → F .f32) (ix2 r q) = m ((c : Thread nD τ).loc main_arg0) (ix2 (sampleOf t r q) 1) := by
  rw [blk1 m c t r q ⟨_, rowOf_lt t r⟩ rfl, V_v5]
  exact col_apply _ 1 _ rfl _ _ _ _ q (sampleOf t r q) rfl

/-- Entry `(r, q)` of the third block at point `t` is the label of that sample. -/
theorem in2 (c : Dev nD) (t : Fin cfg0.N) (r : Fin 1024) (q : Fin 128) :
    (iblk m c 2 t : S1024x128.Idx → BitVec 32) (ix2 r q) = m ((c : Thread nD τ).loc main_arg1) (ix1 (sampleOf t r q)) := by
  rw [blk2 m c t r q ⟨_, rowOf_lt t r⟩ rfl, V_v6]
  exact flat_apply _ _ _ q (sampleOf t r q) rfl

end Cert.KernelBlocks

end
-- ==== Proof.KernelAcc.lean ====
/-
  The kernel's 128 running totals, grid point by grid point.

  The output block is one row of 128 lane totals that stays in place over the 64 grid points. At the first point the body
  stores zeros and then adds that point's lane sums; at every later point it adds that point's lane sums to what the point
  before left. So after point `n` lane `q` holds the sum, over the points `t ≤ n` and the rows `r` of their blocks, of the
  loss of the sample at entry `(r, q)` of point `t` — by induction on the point.
-/
import proofs.«176712_j52819507806483_2_alg».proof.Proof.Gen.KernelIdeal.Frame
import proofs.«176712_j52819507806483_2_alg».proof.Proof.KernelLoss
import proofs.«176712_j52819507806483_2_alg».proof.Proof.KernelBlocks
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelAcc

open Cert.KernelIdeal Cert.KernelIdeal.Gen Idealize.ShloMosaic.ValueIdx Cert.LossSpec Cert.KernelLoss Cert.KernelBlocks

/-! ## Initial segments of the grid -/

section Segments

variable {N : ℕ}

/-- The points up to the first are the first. -/
theorem filter_le_zero (h : 0 < N) : (Finset.univ.filter fun t : Fin N => t.val ≤ 0) = {⟨0, h⟩} := by
  ext t
  simp only [Finset.mem_filter, Finset.mem_univ, true_and, Finset.mem_singleton, Fin.ext_iff]
  omega

/-- The points up to `n + 1` are that point and the points up to `n`. -/
theorem filter_le_succ (n : ℕ) (h : n + 1 < N) :
    (Finset.univ.filter fun t : Fin N => t.val ≤ n + 1) = insert ⟨n + 1, h⟩ (Finset.univ.filter fun t : Fin N => t.val ≤ n) := by
  ext t
  simp only [Finset.mem_filter, Finset.mem_univ, true_and, Finset.mem_insert, Fin.ext_iff]
  omega

theorem not_mem_filter_le (n : ℕ) (h : n + 1 < N) : (⟨n + 1, h⟩ : Fin N) ∉ Finset.univ.filter fun t : Fin N => t.val ≤ n := by
  simp only [Finset.mem_filter, Finset.mem_univ, true_and]
  omega

end Segments

/-! ## What each case of the body leaves in the output block -/

section Cases

variable {F : FTy → Type} [FloatOps F] [Named F]

theorem hz : (![0, 0] : Fin 2 → Nat) = fun _ => 0 := funext fun a => by fin_cases a <;> rfl

/-- At a later point the body leaves its one store's payload over the totals it found. -/
theorem out_B (c : Dev nD) (i : grid0.Coords) (a1 : Memref sig .tc .vmem S1024x128 .f32) (h1 : a1.IsWhole)
    (a2 : Memref sig .tc .vmem S1024x128 .f32) (h2 : a2.IsWhole) (a3 : Memref sig .tc .vmem S1024x128 .i32) (h3 : a3.IsWhole)
    (a4 : Memref sig .tc .vmem S1x128 .f32) (h4 : a4.IsWhole) (hc : ¬cond0_0 i)
    (x0 x1 : Vec F S1024x128 .f32) (x2 : Vec F S1024x128 .i32) (xo : Vec F S1x128 .f32) :
    out0_B_3 c i a1 h1 a2 h2 a3 h3 a4 h4 hc x0 x1 x2 xo
      = k0_pay1 (k0_pay5 x2) (k0_pay10 x0 x1) (k0_pay11 x0 x1) (k0_pay12 x0 x1) (k0_pay13 x0 x1) xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S1024x128) hz, View.ld_unit_zero (S := S1x128) hz]

/-- At the first point the body stores the zero block, reads it back, and leaves its second store's payload over it. -/
theorem out_A (c : Dev nD) (i : grid0.Coords) (a1 : Memref sig .tc .vmem S1024x128 .f32) (h1 : a1.IsWhole)
    (a2 : Memref sig .tc .vmem S1024x128 .f32) (h2 : a2.IsWhole) (a3 : Memref sig .tc .vmem S1024x128 .i32) (h3 : a3.IsWhole)
    (a4 : Memref sig .tc .vmem S1x128 .f32) (h4 : a4.IsWhole) (hc : cond0_0 i)
    (x0 x1 : Vec F S1024x128 .f32) (x2 : Vec F S1024x128 .i32) :
    out0_A_3 c i a1 h1 a2 h2 a3 h3 a4 h4 hc x0 x1 x2
      = k0_pay1 (k0_pay5 x2) (k0_pay10 x0 x1) (k0_pay11 x0 x1) (k0_pay12 x0 x1) (k0_pay13 x0 x1) (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S1024x128) hz]

end Cases

/-! ## The totals -/

variable (m : (ℓ : Loc nD τ sig) → Buf (Elt Ideal) ℓ)

/-- The loss of the sample at entry `(r, q)` of grid point `t`'s blocks. -/
def entryLoss (c : Dev nD) (t : Fin cfg0.N) (r : Fin 1024) (q : Fin 128) : EReal :=
  sampleLoss (m ((c : Thread nD τ).loc main_arg0) (ix2 (sampleOf t r q) 0))
    (m ((c : Thread nD τ).loc main_arg0) (ix2 (sampleOf t r q) 1))
    (m ((c : Thread nD τ).loc main_arg1) (ix1 (sampleOf t r q)))

/-- Grid point `t`'s sum for lane `q`: over the rows of its blocks. -/
def pointSum (c : Dev nD) (t : Fin cfg0.N) (q : Fin 128) : EReal := ∑ r : Fin 1024, entryLoss m c t r q

/-- Lane `q`'s total after point `n`: over the points up to `n`. -/
def total (c : Dev nD) (q : Fin 128) (n : ℕ) : EReal :=
  ∑ t ∈ Finset.univ.filter (fun t : Fin cfg0.N => t.val ≤ n), pointSum m c t q

/-- The body's store at point `t`, at lane `q`: what it was handed plus the point's sum for the lane. -/
theorem body_sum (c : Dev nD) (t : Fin cfg0.N) (xo : Vec Ideal S1x128 .f32) (q : Fin 128) :
    k0_pay1 (F := Ideal) (k0_pay5 (iblk m c 2 t)) (k0_pay10 (iblk m c 0 t) (iblk m c 1 t)) (k0_pay11 (iblk m c 0 t) (iblk m c 1 t))
        (k0_pay12 (iblk m c 0 t) (iblk m c 1 t)) (k0_pay13 (iblk m c 0 t) (iblk m c 1 t)) xo (ix2 (0 : Fin 1) q)
      = xo (ix2 (0 : Fin 1) q) + pointSum m c t q := by
  refine (pay1_apply (iblk m c 0 t) (iblk m c 1 t) (iblk m c 2 t) xo q).trans ?_
  refine congrArg (xo (ix2 (0 : Fin 1) q) + ·) (Finset.sum_congr rfl fun r _ => ?_)
  show sampleLoss ((iblk m c 0 t : S1024x128.Idx → Ideal .f32) (ix2 r q)) ((iblk m c 1 t : S1024x128.Idx → Ideal .f32) (ix2 r q))
      ((iblk m c 2 t : S1024x128.Idx → BitVec 32) (ix2 r q)) = _
  rw [in0 m c t r q, in1 m c t r q, in2 m c t r q]
  rfl

/-- The output block after the first point. -/
theorem outsAt_zero (c : Dev nD) (h : 0 < cfg0.N) :
    outsAt0 m c 0 h
      = k0_pay1 (F := Ideal) (k0_pay5 (iblk m c 2 ⟨0, h⟩)) (k0_pay10 (iblk m c 0 ⟨0, h⟩) (iblk m c 1 ⟨0, h⟩))
          (k0_pay11 (iblk m c 0 ⟨0, h⟩) (iblk m c 1 ⟨0, h⟩)) (k0_pay12 (iblk m c 0 ⟨0, h⟩) (iblk m c 1 ⟨0, h⟩))
          (k0_pay13 (iblk m c 0 ⟨0, h⟩) (iblk m c 1 ⟨0, h⟩)) (k0_pay2 (F := Ideal)) :=
  (outsAt0_A m c ⟨0, h⟩ rfl).trans
    (out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) ((hcond0_0 ⟨0, h⟩).mpr rfl) (iblk m c 0 ⟨0, h⟩) (iblk m c 1 ⟨0, h⟩) (iblk m c 2 ⟨0, h⟩))

/-- The output block after a later point, over the block after the point before. -/
theorem outsAt_succ (c : Dev nD) (n : ℕ) (h : n + 1 < cfg0.N) :
    outsAt0 m c (n + 1) h
      = k0_pay1 (F := Ideal) (k0_pay5 (iblk m c 2 ⟨n + 1, h⟩)) (k0_pay10 (iblk m c 0 ⟨n + 1, h⟩) (iblk m c 1 ⟨n + 1, h⟩))
          (k0_pay11 (iblk m c 0 ⟨n + 1, h⟩) (iblk m c 1 ⟨n + 1, h⟩)) (k0_pay12 (iblk m c 0 ⟨n + 1, h⟩) (iblk m c 1 ⟨n + 1, h⟩))
          (k0_pay13 (iblk m c 0 ⟨n + 1, h⟩) (iblk m c 1 ⟨n + 1, h⟩)) (outsAt0 m c n (Nat.lt_of_succ_lt h)) := by
  have hN : cfg0.N = 64 := N_0
  have hB : ¬(⟨n + 1, h⟩ : Fin cfg0.N).val % 64 = 0 := by dsimp only; omega
  exact (outsAt0_B m c ⟨n + 1, h⟩ hB).trans
    (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun h' => hB ((hcond0_0 ⟨n + 1, h⟩).mp h'))
      (iblk m c 0 ⟨n + 1, h⟩) (iblk m c 1 ⟨n + 1, h⟩) (iblk m c 2 ⟨n + 1, h⟩) (outsAt0 m c n (Nat.lt_of_succ_lt h)))

/-- After point `n`, lane `q` of the output block holds the lane's total over the points up to `n`. -/
theorem outsAt_lane (c : Dev nD) (q : Fin 128) : ∀ (n : ℕ) (h : n < cfg0.N), outsAt0 m c n h (ix2 (0 : Fin 1) q) = total m c q n
  | 0, h => by
    rw [outsAt_zero m c h]
    refine (body_sum m c ⟨0, h⟩ _ q).trans ?_
    rw [pay2_apply, zero_add]
    unfold total
    rw [filter_le_zero h, Finset.sum_singleton]
  | n + 1, h => by
    rw [outsAt_succ m c n h]
    refine (body_sum m c ⟨n + 1, h⟩ _ q).trans ?_
    rw [outsAt_lane c q n (Nat.lt_of_succ_lt h)]
    unfold total
    rw [filter_le_succ n h, Finset.sum_insert (not_mem_filter_le n h), add_comm]

end Cert.KernelAcc

end
-- ==== Proof.KernelRun.lean ====
/-
  The kernel's run, read: the array of 128 lane totals after the last grid point, and the scalar the program returns.

  The output block is written back once, after the last of the 64 grid points, and its one block is the whole `[1, 128]`
  array: so the array ends holding, in lane `q`, the lane's total over all 64 points. The program then sums the 128 lanes
  from zero, multiplies by `2⁻²³` and by `1`.
-/
import proofs.«176712_j52819507806483_2_alg».proof.Proof.KernelAcc
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelRun

open Cert.KernelIdeal Cert.KernelIdeal.Gen Idealize.ShloMosaic.ValueIdx Cert.LossSpec Cert.KernelLoss Cert.KernelBlocks Cert.KernelAcc

variable (m : (ℓ : Loc nD τ sig) → Buf (Elt Ideal) ℓ) (ρ : Dev nD → PrngReg)

/-- The array of lane totals after the run: lane `q` at its total over all 64 grid points. -/
def result (c : Dev nD) : Buf (Elt Ideal) ((c : Thread nD τ).loc main_v7) :=
  fun y => total m c (⟨(y 1).val, (y 1).isLt⟩ : Fin 128) 63

/-- After the last point the output block is that array. -/
theorem outs_last (c : Dev nD) (t : Fin cfg0.N) (h : t.val = 63) : outsAt0 m c t.val t.isLt = result m c := by
  obtain ⟨n, hn⟩ := t
  dsimp only at h
  subst h
  funext y
  obtain ⟨p, q, rfl⟩ : ∃ (p : Fin 1) (q : Fin 128), y = ix2 p q := ⟨y 0, y 1, eq_ix2 y⟩
  obtain rfl : p = 0 := Subsingleton.elim _ _
  exact outsAt_lane m c q 63 hn

/-- The output window sits at block `(0, 0)` at every point, and its block is the whole array. -/
theorem out_facts : ∀ t : Fin cfg0.N,
    (win0_3.index t (0 : Fin 2) = 0 ∧ win0_3.index t (1 : Fin 2) = 0)
    ∧ (win0_3.xsize (grid0.coords t) (0 : Fin 2) = 1 ∧ win0_3.xsize (grid0.coords t) (1 : Fin 2) = 128) :=
  (by decide +kernel : ∀ t : Fin grid0.N,
    (win0_3.index t (0 : Fin 2) = 0 ∧ win0_3.index t (1 : Fin 2) = 0)
    ∧ (win0_3.xsize (grid0.coords t) (0 : Fin 2) = 1 ∧ win0_3.xsize (grid0.coords t) (1 : Fin 2) = 128))

/-- The one write-back, after the last point, writes the array of lane totals. -/
theorem flushed_eq (c : Dev nD) (t : Fin cfg0.N) (hf : (cfg0.win 3).flush t = true) :
    (dats m 0 c).flushed 3 t = ((cfg0.win 3).blk t).view.read (Elt Ideal) (result m c) := by
  have hN : cfg0.N = 64 := N_0
  have h63 : t.val = 63 := by have := (flush0_3 t).mp hf; have := t.isLt; omega
  show (cfg0.win 3).cut (grid0.coords t) ((dats m 0 c).after 3 t) = _
  rw [after0_3, outs_last m c t h63]
  have hz' : (fun a => win0_3.index t a * main_v7.ty.shape.size a) = fun _ => 0 := funext fun a => by
    match a with
    | ⟨0, _⟩ => show win0_3.index t 0 * _ = 0; rw [(out_facts t).1.1, Nat.zero_mul]
    | ⟨1, _⟩ => show win0_3.index t 1 * _ = 0; rw [(out_facts t).1.2, Nat.zero_mul]
  exact (Memref.read_access_unit_zero (Elt Ideal) main_v7 hz' (fun a => by rw [congrFun hz' a]; simp) (result m c)).symm

/-- The last grid point. -/
def tLast : Fin cfg0.N := ⟨63, by rw [show cfg0.N = 64 from N_0]; decide⟩

/-- So the array ends holding the lane totals: its one block, written back after the last point, is all of it. -/
theorem final (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v7).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [(out_facts tLast).1.1, (out_facts tLast).2.1, Nat.zero_mul]; omega
      | ⟨1, _⟩ =>
        show win0_3.index tLast 1 * win0_3.size 1 ≤ (i 1 : Nat) ∧ (i 1 : Nat) < win0_3.index tLast 1 * win0_3.size 1 + win0_3.xsize (grid0.coords tLast) 1
        rw [(out_facts tLast).1.2, (out_facts tLast).2.2, Nat.zero_mul]; omega⟩

/-- The scalar the program returns, as the host operations after the kernel compute it from the array of lane totals. -/
theorem tail_eq (c : Dev nD) :
    Pipeline.afterTail₀ cfgs (dats m) 0 (V0 m) [hostOps1] c main_v10
      = mulf (mulf (Host.reduceAdd (result m c) (constant (F := Ideal) S_ .f32 0x00000000#32) Facts₀.reducesTo_S1x128_S_d0_1 Facts₀.h_S_)
          (constant (F := Ideal) S_ .f32 0x34000000#32)) (constant (F := Ideal) S_ .f32 0x3F800000#32) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v7) = result m c :=
    (Pipeline.withArrays_arr spec0 launch0.win.arr_inj c _ _ 3).trans (final m c)
  rw [e]

end Cert.KernelRun

end
-- ==== Proof.SumRegroup.lean ====
/-
  Regrouping a sum over `2²³` samples as a sum over 128 lanes, 64 grid points and 1024 rows.

  Every `n < 2²³` is `(1024·t + r)·128 + q` for exactly one lane `q < 128`, point `t < 64` and row `r < 1024`
  (`q = n mod 128`, `r = (n div 128) mod 1024`, `t = (n div 128) div 1024`). So a sum over the samples, in any commutative
  monoid, is the sum over lanes of the sums over points of the sums over rows: no finiteness is needed, only that addition
  is commutative and associative.
-/
import Mathlib.Algebra.BigOperators.Fin
import Mathlib.Data.Fintype.BigOperators
import Mathlib.Tactic

namespace Cert.SumRegroup

/-- Lanes, points and rows against samples: `(q, t, r) ↦ (1024·t + r)·128 + q` is a bijection onto `Fin 2²³`. -/
def sampleEquiv {N : ℕ} (hN : N = 64) (s : Fin N → Fin 1024 → Fin 128 → Fin 8388608)
    (hs : ∀ t r q, (s t r q).val = (t.val * 1024 + r.val) * 128 + q.val) :
    Fin 128 × Fin N × Fin 1024 ≃ Fin 8388608 where
  toFun x := s x.2.1 x.2.2 x.1
  invFun n := (⟨n.val % 128, Nat.mod_lt _ (by norm_num)⟩,
    ⟨n.val / 128 / 1024, by have := n.isLt; omega⟩,
    ⟨n.val / 128 % 1024, Nat.mod_lt _ (by norm_num)⟩)
  left_inv x := by
    obtain ⟨q, t, r⟩ := x
    have h := hs t r q
    have hq := q.isLt; have ht : t.val < 64 := hN ▸ t.isLt; have hr := r.isLt
    refine Prod.ext (Fin.ext ?_) (Prod.ext (Fin.ext ?_) (Fin.ext ?_))
    · show (s t r q).val % 128 = q.val; omega
    · show (s t r q).val / 128 / 1024 = t.val; omega
    · show (s t r q).val / 128 % 1024 = r.val; omega
  right_inv n := by
    apply Fin.ext
    have hn := n.isLt
    rw [hs]
    show (n.val / 128 / 1024 * 1024 + n.val / 128 % 1024) * 128 + n.val % 128 = n.val
    omega

/-- A sum over the samples is the sum over lanes of the sums over points of the sums over rows. -/
theorem sum_regroup {M : Type*} [AddCommMonoid M] {N : ℕ} (hN : N = 64) (s : Fin N → Fin 1024 → Fin 128 → Fin 8388608)
    (hs : ∀ t r q, (s t r q).val = (t.val * 1024 + r.val) * 128 + q.val) (f : Fin 8388608 → M) :
    ∑ q : Fin 128, ∑ t : Fin N, ∑ r : Fin 1024, f (s t r q) = ∑ n : Fin 8388608, f n := by
  rw [← Fintype.sum_equiv (sampleEquiv hN s hs) (fun x => f (s x.2.1 x.2.2 x.1)) f (fun x => rfl), Fintype.sum_prod_type]
  refine Finset.sum_congr rfl fun q _ => ?_
  rw [Fintype.sum_prod_type]

end Cert.SumRegroup
-- ==== Proof.KernelTotal.lean ====
/-
  The kernel's result: the mean loss.

  The 128 lane totals, summed, are the sum over lanes, grid points and rows of the losses of the samples the blocks hold;
  every sample is held at exactly one lane, point and row, so that is the sum over all samples. The program sums the lanes
  from zero (`0 + x = x`), multiplies by `2⁻²³` and then by `1` (`x · 1 = x`).
-/
import proofs.«176712_j52819507806483_2_alg».proof.Proof.KernelRun
import proofs.«176712_j52819507806483_2_alg».proof.Proof.SumRegroup

noncomputable section

open Idealize.ShloMosaic Idealize.ShloMosaic.TcCoe Idealize.SL.Sem
open Idealize.ShloMosaic.Pipeline (Dat)

namespace Cert.KernelTotal

open Cert.KernelIdeal Cert.KernelIdeal.Gen Idealize.ShloMosaic.ValueIdx Cert.LossSpec Cert.KernelBlocks Cert.KernelAcc Cert.KernelRun
  Cert.SumRegroup

variable (m : (ℓ : Loc nD τ sig) → Buf (Elt Ideal) ℓ) (ρ : Dev nD → PrngReg)

/-- A lane's total after the last point is over all the points. -/
theorem total_all (c : Dev nD) (q : Fin 128) : total m c q 63 = ∑ t : Fin cfg0.N, pointSum m c t q := by
  unfold total
  rw [Finset.filter_true_of_mem (fun t _ => by have := t.isLt; have hN : cfg0.N = 64 := N_0; omega)]

/-- The array of lane totals, as a function from its indices to the extended reals. -/
def lanes (c : Dev nD) : S1x128.Idx → EReal := result m c

/-- The lane totals, summed, are the sum of all the samples' losses. -/
theorem lanes_sum (c : Dev nD) :
    (∑ y : S1x128.Idx, lanes m c y)
      = ∑ n : Fin 8388608, sampleLoss (m ((c : Thread nD τ).loc main_arg0) (ix2 n 0)) (m ((c : Thread nD τ).loc main_arg0) (ix2 n 1))
          (m ((c : Thread nD τ).loc main_arg1) (ix1 n)) := by
  refine (sum_idx2 (M := EReal) (n0 := 1) (n1 := 128) (lanes m c)).trans ?_
  rw [Fin.sum_univ_one]
  show (∑ q : Fin 128, total m c q 63) = _
  rw [Finset.sum_congr rfl fun q _ => total_all m c q]
  exact sum_regroup N_0 sampleOf (fun t r q => rfl)
    (fun n => sampleLoss (m ((c : Thread nD τ).loc main_arg0) (ix2 n 0)) (m ((c : Thread nD τ).loc main_arg0) (ix2 n 1))
      (m ((c : Thread nD τ).loc main_arg1) (ix1 n)))

/-- The host's sum of a `[1, 128]` array from zero, over both its axes. -/
theorem hostSum (y : S1x128.Idx → EReal) (i : S_.Idx) :
    Host.reduceAdd (F := Ideal) y (constant (F := Ideal) S_ .f32 0x00000000#32) Facts₀.reducesTo_S1x128_S_d0_1 Facts₀.h_S_ i
      = Ideal.ofBits .f32 0x00000000#32 + ∑ j : S1x128.Idx, y j := by
  simp only [Host.reduceAdd, Ideal.hostReduceAdd_def]
  exact Ideal.hostReduceAdd_total Facts₀.reducesTo_S1x128_S_d0_1 (fun b => b.elim0) y _ i

/-- The scalar the program returns is the mean loss. -/
theorem kernel_value (c : Dev nD) :
    Pipeline.afterTail₀ cfgs (dats m) 0 (V0 m) [hostOps1] c main_v10
      = fun _ => meanLoss (m ((c : Thread nD τ).loc main_arg0)) (m ((c : Thread nD τ).loc main_arg1)) := by
  rw [tail_eq]
  funext i
  show (Host.reduceAdd (F := Ideal) (lanes m c) (constant (F := Ideal) S_ .f32 0x00000000#32) Facts₀.reducesTo_S1x128_S_d0_1 Facts₀.h_S_ i
      * Ideal.ofBits .f32 0x34000000#32) * Ideal.ofBits .f32 0x3F800000#32 = _
  rw [hostSum, lanes_sum, ofBits_one, mul_one, Ideal.ofBits_zero_f32, zero_add]
  rfl

/-- The run, read: the result at the mean loss of the arguments, the arguments unchanged. -/
theorem run : θ_run defs (onTc (τ := τ) (main (F := Ideal))) ⟨m, fun _ => 0, ρ⟩ fun r => ∀ c : Dev nD,
      r.2.mem ((c.tc : Thread nD τ).loc main_v10)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (kernel_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelTotal

end
-- ==== Proof.RefLoss.lean ====
/-
  The reference, sample by sample: at sample `n` the array the reference sums is the loss of that sample's two logits
  and label.

  The reference takes the row maximum as a reduction from `-∞` followed by one more maximum with `-∞`: over the two
  entries of a row that is `max a b`. Its row sum starts from `0`: `0 + (e₀ + e₁) = e₀ + e₁`. It divides the clipped
  excess probabilities by the single-precision words for `1 - 0.95` and `1 - 0.05`, which on the extended reals is the
  product with their exact reciprocals; and it negates the weights, which is `-w`.
-/
import proofs.«176712_j52819507806483_2_alg».proof.Proof.Gen.ReferenceIdeal.Read
import proofs.«176712_j52819507806483_2_alg».proof.Proof.LossSpec
import Idealize.ShloMosaic.Lib.ValueIdx
import Idealize.ShloMosaic.PureOps.Ideal.Laws

noncomputable section

namespace Cert.RefLoss

open Cert.ReferenceIdeal Cert.ReferenceIdeal.Gen Cert.ReferenceIdeal.Read Idealize.ShloMosaic Idealize.ShloMosaic.ValueIdx Cert.LossSpec

/-! ## The row maximum -/

/-- Row `n` with its column `k` put back is the entry `(n, k)`. -/
theorem lift_row (h : S8388608x2.Reduces [1] S8388608) (n : Fin 8388608) (k : Fin (S8388608x2.size 1)) :
    h.lift (ix1 n) k = ix2 n (⟨k.val, k.isLt⟩ : Fin 2) := by
  funext c; apply Fin.ext
  fin_cases c <;> rfl

/-- The word `0xFF800000` is `-∞`. -/
theorem ofBits_negInf : Ideal.ofBits .f32 0xFF800000#32 = (⊥ : EReal) := by
  simp [Ideal.ofBits, Ideal.ieee]

/-- Folding `max` from `-∞` over two values gives the larger of the two. -/
theorem fold_max_two (g : Fin 2 → EReal) :
    Finset.fold (max : EReal → EReal → EReal) (⊥ : EReal) g (Finset.univ : Finset (Fin 2)) = max (g 0) (g 1) := by
  rw [show (Finset.univ : Finset (Fin 2)) = {0, 1} from by decide, Finset.fold_insert (by decide), Finset.fold_singleton,
    max_bot_right]

/-- From `-∞`, the maximum over the two entries of row `n` is the larger of the two. -/
theorem hostMax2 (x : FVec Ideal S8388608x2 .f32) (h' : S8388608x2.ReducesTo [1] S8388608) (hu : 0 < S_.numel) (n : Fin 8388608) :
    Host.reduce FloatOps.maximumf x (constant S_ .f32 0xFF800000#32) h' hu (ix1 n) = max (x (ix2 n 0)) (x (ix2 n 1)) := by
  have h : S8388608x2.Reduces [1] S8388608 := by decide
  rw [Host.reduce_eq_fold_single FloatOps.maximumf x _ h' h hu]
  have hf : (x ∘ h.lift (ix1 n)) = fun k : Fin 2 => x (ix2 n k) := funext fun k => congrArg x (lift_row h n k)
  have e : Finset.fold (max : EReal → EReal → EReal) (Ideal.ofBits .f32 0xFF800000#32) (fun k : Fin 2 => x (ix2 n k))
      (Finset.univ : Finset (Fin 2)) = max (x (ix2 n 0)) (x (ix2 n 1)) := by
    rw [ofBits_negInf]; exact fold_max_two _
  refine Eq.trans ?_ e
  exact congrArg (fun f => Finset.fold max (Ideal.ofBits .f32 0xFF800000#32) f (Finset.univ : Finset (Fin 2))) hf

variable (x0 : (⟨S8388608x2, .f32⟩ : BufTy).Contents (Elt Ideal)) (x1 : (⟨S8388608, .i32⟩ : BufTy).Contents (Elt Ideal))

/-- The reference's row maximum at sample `n`. -/
theorem rowMax (n : Fin 8388608) :
    val_main_v2 (F := Ideal) x0 (ix1 n) = max (x0 (ix2 n 0)) (x0 (ix2 n 1)) := by
  rw [val_main_v2_apply, val_main_v1_apply, val_main_cst_0_apply]
  unfold val_main_v0
  show max (Ideal.ofBits .f32 0xFF800000#32) (Host.reduce FloatOps.maximumf (x0 : FVec Ideal S8388608x2 .f32) (constant S_ .f32 0xFF800000#32) _ _ (ix1 n)) = _
  rw [hostMax2, ofBits_negInf, max_bot_left]

/-! ## The exponentials, their sum, the probabilities -/

theorem idx4 (n : Fin 8388608) (k : Fin 2) : idx_main_v3 (idx_main_v4 (ix2 n k)) = ix1 n := by
  funext a; apply Fin.ext; match a with | ⟨0, _⟩ => rfl

/-- The shifted exponential at entry `(n, k)`. -/
theorem expAt (n : Fin 8388608) (k : Fin 2) :
    val_main_v6 (F := Ideal) x0 (ix2 n k) = Ideal.exp (x0 (ix2 n k) - max (x0 (ix2 n 0)) (x0 (ix2 n 1))) := by
  rw [val_main_v6_apply, val_main_v5_apply, val_main_v4_apply, val_main_v3_apply, idx4, rowMax]
  rfl

theorem idx7 (n : Fin 8388608) (k : Fin 2) : idx_main_v7 (ix1 n) k = ix2 n k := by
  funext a; apply Fin.ext; match a with | ⟨0, _⟩ => rfl | ⟨1, _⟩ => rfl

/-- The row's sum of exponentials. -/
theorem sumAt (n : Fin 8388608) :
    val_main_v7 (F := Ideal) x0 (ix1 n)
      = Ideal.exp (x0 (ix2 n 0) - max (x0 (ix2 n 0)) (x0 (ix2 n 1))) + Ideal.exp (x0 (ix2 n 1) - max (x0 (ix2 n 0)) (x0 (ix2 n 1))) := by
  rw [val_main_v7_apply, val_main_cst_1_apply, Fin.sum_univ_two, idx7, idx7, expAt, expAt]
  show Ideal.ofBits .f32 0x00000000#32 + _ = _
  rw [Ideal.ofBits_zero_f32, zero_add]

theorem idx9 (n : Fin 8388608) (k : Fin 2) : idx_main_v8 (idx_main_v9 (ix2 n k)) = ix1 n := by
  funext a; apply Fin.ext; match a with | ⟨0, _⟩ => rfl

theorem idx12 (n : Fin 8388608) : idx_main_v11 (idx_main_v12 (ix1 n)) = ix2 n 0 := by
  funext a; apply Fin.ext; match a with | ⟨0, _⟩ => exact Nat.div_one _ | ⟨1, _⟩ => rfl

theorem idx14 (n : Fin 8388608) : idx_main_v13 (idx_main_v14 (ix1 n)) = ix2 n 1 := by
  funext a; apply Fin.ext; match a with | ⟨0, _⟩ => exact Nat.div_one _ | ⟨1, _⟩ => rfl

/-- The first class's probability at sample `n`. -/
theorem probStableAt (n : Fin 8388608) :
    val_main_v12 (F := Ideal) x0 (ix1 n) = probStable (x0 (ix2 n 0)) (x0 (ix2 n 1)) := by
  rw [val_main_v12_apply, val_main_v11_apply, idx12, val_main_v10_apply, val_main_v9_apply, val_main_v8_apply, idx9, expAt, sumAt]
  rfl

/-- The second class's probability at sample `n`. -/
theorem probChangeAt (n : Fin 8388608) :
    val_main_v14 (F := Ideal) x0 (ix1 n) = probChange (x0 (ix2 n 0)) (x0 (ix2 n 1)) := by
  rw [val_main_v14_apply, val_main_v13_apply, idx14, val_main_v10_apply, val_main_v9_apply, val_main_v8_apply, idx9, expAt, sumAt]
  rfl

/-! ## The weights and the sample's loss -/

/-- The first class's weight at sample `n`: the reference's quotient by the word for `1 - 0.95` is the product with that
    word's exact reciprocal. -/
theorem weightStableAt (n : Fin 8388608) :
    val_main_v26 (F := Ideal) x0 (ix1 n) = weightStable (probStable (x0 (ix2 n 0)) (x0 (ix2 n 1))) := by
  rw [val_main_v26_apply, val_main_v25_apply, val_main_cst_7_apply, val_main_v24_apply, val_main_v23_apply,
    val_main_cst_6_apply, val_main_v22_apply, val_main_v21_apply, val_main_cst_5_apply, val_main_v20_apply,
    val_main_v19_apply, val_main_cst_4_apply, val_main_v18_apply, val_main_v17_apply, val_main_cst_3_apply,
    val_main_v16_apply, val_main_v15_apply, val_main_cst_2_apply, probStableAt]
  unfold weightStable
  simp only [Ideal.ofBits_def, Ideal.maximumf_def, Ideal.subf_def, Ideal.mulf_def, Ideal.hostDivf_def, Ideal.ofBits_zero_f32]
  rw [div_oneMinusStable]

/-- The second class's weight at sample `n`: the reference's quotient by the word for `1 - 0.05` is the product with that
    word's exact reciprocal. -/
theorem weightChangeAt (n : Fin 8388608) :
    val_main_v36 (F := Ideal) x0 (ix1 n) = weightChange (probChange (x0 (ix2 n 0)) (x0 (ix2 n 1))) := by
  rw [val_main_v36_apply, val_main_v35_apply, val_main_cst_12_apply, val_main_v34_apply, val_main_v33_apply,
    val_main_cst_11_apply, val_main_v32_apply, val_main_v31_apply, val_main_cst_10_apply, val_main_v30_apply,
    val_main_v29_apply, val_main_cst_9_apply, val_main_v28_apply, val_main_v27_apply, val_main_cst_8_apply, probChangeAt]
  unfold weightChange
  simp only [Ideal.ofBits_def, Ideal.maximumf_def, Ideal.subf_def, Ideal.mulf_def, Ideal.hostDivf_def, Ideal.ofBits_zero_f32]
  rw [div_oneMinusChange]

/-- What the reference sums, at sample `n`: that sample's loss. -/
theorem sampleAt (n : Fin 8388608) :
    val_main_v49 (F := Ideal) x0 x1 (ix1 n) = sampleLoss (x0 (ix2 n 0)) (x0 (ix2 n 1)) (x1 (ix1 n)) := by
  rw [val_main_v49_apply, val_main_v38_apply, val_main_v37_apply, val_main_c_apply, val_main_v43_apply, val_main_v39_apply,
    val_main_v42_apply, val_main_v41_apply, val_main_v40_apply, val_main_cst_13_apply, val_main_v48_apply, val_main_v44_apply,
    val_main_v47_apply, val_main_v46_apply, val_main_v45_apply, val_main_cst_14_apply, weightStableAt, weightChangeAt,
    probStableAt, probChangeAt]
  unfold sampleLoss
  simp only [Ideal.ofBits_def, Ideal.hostNegf_def, Ideal.negf_def, Ideal.mulf_def, Ideal.addf_def, Ideal.hostUnary_log_def]

end Cert.RefLoss

end
-- ==== Proof.RefTotal.lean ====
/-
  The reference's result: the mean loss.

  The reference sums the samples' losses from zero, divides by the sample count `2²³` and multiplies by `1`. On the extended
  reals the quotient by `2²³` is the product with `2⁻²³`, `0 + x = x` and `1 · x = x`.
-/
import proofs.«176712_j52819507806483_2_alg».proof.Proof.RefLoss

noncomputable section

namespace Cert.RefTotal

open Cert.ReferenceIdeal Cert.ReferenceIdeal.Gen Cert.ReferenceIdeal.Read Idealize.ShloMosaic Idealize.ShloMosaic.ValueIdx Cert.LossSpec Cert.RefLoss

/-- One-axis indices against their one coordinate. -/
def idx1Equiv : S8388608.Idx ≃ Fin 8388608 where
  toFun j := ⟨(j 0).val, (j 0).isLt⟩
  invFun n := ix1 n
  left_inv j := (eq_ix1 j).symm
  right_inv n := rfl

variable (x0 : (⟨S8388608x2, .f32⟩ : BufTy).Contents (Elt Ideal)) (x1 : (⟨S8388608, .i32⟩ : BufTy).Contents (Elt Ideal))

/-- The sum the reference takes, as a sum of the samples' losses. -/
theorem sum_samples :
    (∑ j : S8388608.Idx, val_main_v49 (F := Ideal) x0 x1 j)
      = ∑ n : Fin 8388608, sampleLoss (x0 (ix2 n 0)) (x0 (ix2 n 1)) (x1 (ix1 n)) := by
  rw [← Fintype.sum_equiv idx1Equiv.symm (fun n => val_main_v49 (F := Ideal) x0 x1 (ix1 n)) _ (fun n => rfl)]
  exact Finset.sum_congr rfl fun n _ => sampleAt x0 x1 n

/-- The reference's result is the mean loss. -/
theorem ref_total (i : S_.Idx) : val_main_v52 (F := Ideal) x0 x1 i = meanLoss x0 x1 := by
  rw [val_main_v52_apply, val_main_cst_17_apply, val_main_v51_apply, val_main_cst_16_apply, val_main_v50_apply,
    val_main_cst_15_apply, sum_samples]
  simp only [Ideal.ofBits_def, Ideal.mulf_def, Ideal.hostDivf_def]
  rw [ofBits_one, one_mul, Ideal.ofBits_zero_f32, zero_add, div_count]
  rfl

end Cert.RefTotal

end
-- ==== Proof.lean ====
/-
  Two programs for the mean, over `2²³` samples, of a probability-adjusted two-class loss agree on the extended reals.

  One sample has two logits `a`, `b` and a label. Both programs form the two-class softmax `p₀ = eᵃ⁻ᵐ / (eᵃ⁻ᵐ + eᵇ⁻ᵐ)`,
  `p₁ = eᵇ⁻ᵐ / (eᵃ⁻ᵐ + eᵇ⁻ᵐ)` with `m = max a b`, the weights `w₀ = max 0.1 (1 - adj₀ · 0.5)`, `w₁ = max 0.5 (2 - adj₁)`,
  and the loss `-w₀ · log (p₀ + ε)` for label zero, `-w₁ · log (p₁ + ε)` otherwise; the result is the samples' losses
  summed and divided by `2²³`.

  Where they differ, and why each difference is none on the extended reals:
  * `adj₀`, `adj₁`: one program divides `max 0 (p₀ - 0.95)` by the single-precision word for `1 - 0.95` and
    `max 0 (p₁ - 0.05)` by the word for `1 - 0.05`; the other multiplies by constants named as the exact reciprocals of
    those two words. A quotient by a nonzero real is the product with its reciprocal, on every extended real.
  * the row maximum: a reduction from `-∞` followed by a maximum with `-∞`, against `max a b`.
  * the softmax denominator: `0 + (e₀ + e₁)` against `e₀ + e₁`; and `-w` against `0 - w`.
  * the order of summation: one program sums the `2²³` losses in one sweep from zero; the other lays the samples out as
    65536 rows of 128 lanes, takes the rows 1024 at a time over 64 steps, keeps 128 running lane totals (zeroed at the first
    step, each step adding its 1024-row lane sums), and finally sums the 128 lanes from zero. Every sample sits at exactly
    one lane, step and row, and addition of extended reals is commutative and associative: the two totals are one sum.
  * the mean: a quotient by `2²³` against a product with `2⁻²³`, and a factor `1` on either side.
  No step needs the inputs to be finite.
-/
import proofs.«176712_j52819507806483_2_alg».proof.Defs
import proofs.«176712_j52819507806483_2_alg».proof.Proof.Gen.Kernel
import proofs.«176712_j52819507806483_2_alg».proof.Proof.Gen.Kernel.Skeleton
import proofs.«176712_j52819507806483_2_alg».proof.Proof.Gen.Kernel.Launch
import proofs.«176712_j52819507806483_2_alg».proof.Proof.Gen.Kernel.Points
import proofs.«176712_j52819507806483_2_alg».proof.Proof.Gen.Kernel.Frame
import proofs.«176712_j52819507806483_2_alg».proof.Proof.Gen.KernelIdeal
import proofs.«176712_j52819507806483_2_alg».proof.Proof.Gen.KernelIdeal.Skeleton
import proofs.«176712_j52819507806483_2_alg».proof.Proof.Gen.KernelIdeal.Launch
import proofs.«176712_j52819507806483_2_alg».proof.Proof.Gen.KernelIdeal.Points
import proofs.«176712_j52819507806483_2_alg».proof.Proof.Gen.KernelIdeal.Frame
import proofs.«176712_j52819507806483_2_alg».proof.Proof.Gen.ReferenceIdeal
import proofs.«176712_j52819507806483_2_alg».proof.Proof.Gen.Pre_finite_inputs
import proofs.«176712_j52819507806483_2_alg».proof.Proof.Gen.ReferenceIdeal.Run
import proofs.«176712_j52819507806483_2_alg».proof.Proof.Gen.ReferenceIdeal.Read
import proofs.«176712_j52819507806483_2_alg».proof.Proof.KernelTotal
import proofs.«176712_j52819507806483_2_alg».proof.Proof.RefTotal
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two named constants denote, over the extended reals, the exact reciprocals the table gives them. -/
theorem preserves : Cert.preserves_Kernel_KernelIdeal :=
  ⟨IdealRules.named_const.statement Cert.KernelIdeal.κ "inv_one_minus_stable" .f32 0x41A00000#32 ((268435456 / 13421773 : ℝ) : EReal) rfl,
   IdealRules.named_const.statement Cert.KernelIdeal.κ "inv_one_minus_change" .f32 0x3F86BCA2#32 ((16777216 / 15938355 : ℝ) : EReal) rfl⟩

/-- Both programs end at the mean loss of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.LossSpec.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelTotal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2]
  funext i
  exact Cert.RefTotal.ref_total _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
